-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v52_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v52_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128x128 .f32) (main_arg11 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 81
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its two results kept.

  The program is three launches of the layer kernel among three stretches of host operations. Its run ends with every
  buffer that outlives the program at the contents the last boundary's fold of the program gives it; the frame keeps the
  twelve arguments of that state, and here the two result buffers are kept beside them, at that fold's contents.
-/
import proofs.«161956_j21947282883085_1_alg».proof.Proof.PatchedKernelIdealFrame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the arguments as launched. -/
theorem run_results : θ_run defs (onTc (τ := τ) (main (F := F))) ⟨m, fun _ => 0, ρ⟩ (fun r => ∀ c : Dev nD,
      r.2.mem ((c.tc : Thread nD τ).loc main_v37_0) = W6 m ρ c (Proc.devRef .tc main_v37_0)
      ∧ r.2.mem ((c.tc : Thread nD τ).loc main_v52_0) = W6 m ρ c (Proc.devRef .tc main_v52_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37_0 (by decide)),
       h c _ (mem_uc main_v52_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«161956_j21947282883085_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.Layer.lean ====
/-
  One layer of a mean-aggregating graph network, as a function on the extended reals.

  For a matrix of aggregated neighbour features `M` and a matrix of node features `h`, both with `n` rows and 128
  columns, two 128 x 128 weight matrices `Wl`, `Wr` and a bias row `b`, the layer's entry `(p, q)` is
  `(sum_k M (p, k) * Wl (k, q) + sum_k h (p, k) * Wr (k, q)) + b q`. Row `p` of the result reads row `p` of `M` and of `h`
  only, so the layer of a stretch of rows is that stretch of the layer. The rectifier is the entrywise maximum with the
  float zero.

  Two laws of the extended reals join a program that multiplies by the reciprocal of a divisor and adds the bias last
  to one that divides and adds the bias in the middle: `x * (1 / y) = x / y` for every `y` that is not zero (the divisor
  here is a maximum with one), and `(u + v) + w = (u + w) + v`.
-/
import Idealize.ShloMosaic.PureOps.Ideal.Laws
import Idealize.ShloMosaic.Lib.ValueIdx
import Idealize.ShloMosaic.Lib.Pipeline.Value
import proofs.«161956_j21947282883085_1_alg».proof.Proof.LibPlainDot
import proofs.«161956_j21947282883085_1_alg».proof.Proof.LibHostDense
import proofs.«161956_j21947282883085_1_alg».proof.Proof.LibRow
import proofs.«161956_j21947282883085_1_alg».proof.Proof.LibColsJoin

noncomputable section

namespace Cert.Sage

open Idealize.ShloMosaic Idealize.ShloMosaic.ValueIdx
open scoped BigOperators

/-- Entry `(p, q)` of the layer before its rectifier. -/
def layerAt {n : ℕ} (M h : FVec Ideal ⟨2, ![n, 128]⟩ .f32) (Wl Wr : FVec Ideal ⟨2, ![128, 128]⟩ .f32)
    (b : FVec Ideal ⟨2, ![1, 128]⟩ .f32) (p : Fin n) (q : Fin 128) : Ideal .f32 :=
  ((∑ k : Fin 128, M (ix2 p k) * Wl (ix2 k q)) + ∑ k : Fin 128, h (ix2 p k) * Wr (ix2 k q)) + b (ix2 (0 : Fin 1) q)

/-- The layer before its rectifier, as an array. -/
def layer {n : ℕ} (M h : FVec Ideal ⟨2, ![n, 128]⟩ .f32) (Wl Wr : FVec Ideal ⟨2, ![128, 128]⟩ .f32)
    (b : FVec Ideal ⟨2, ![1, 128]⟩ .f32) : FVec Ideal ⟨2, ![n, 128]⟩ .f32 :=
  fun i => layerAt M h Wl Wr b (i 0) (i 1)

theorem layer_ix2 {n : ℕ} (M h : FVec Ideal ⟨2, ![n, 128]⟩ .f32) (Wl Wr : FVec Ideal ⟨2, ![128, 128]⟩ .f32)
    (b : FVec Ideal ⟨2, ![1, 128]⟩ .f32) (p : Fin n) (q : Fin 128) :
    layer M h Wl Wr b (ix2 p q) = layerAt M h Wl Wr b p q := rfl

/-- The rectifier: the entrywise maximum with the float zero. -/
def relu {s : Shape} (x : FVec Ideal s .f32) : FVec Ideal s .f32 :=
  fun i => max (x i) (Ideal.ofBits .f32 0x00000000#32)

/-- Row `p` of the layer reads row `p` of the two feature matrices only: if `M'`, `h'` are the rows `σ p` of `M`, `h`, the
    layer of `M'`, `h'` at row `p` is the layer of `M`, `h` at row `σ p`. -/
theorem layerAt_rows {n n' : ℕ} (σ : Fin n' → Fin n) (M h : FVec Ideal ⟨2, ![n, 128]⟩ .f32)
    (M' h' : FVec Ideal ⟨2, ![n', 128]⟩ .f32) (Wl Wr Wl' Wr' : FVec Ideal ⟨2, ![128, 128]⟩ .f32)
    (b b' : FVec Ideal ⟨2, ![1, 128]⟩ .f32)
    (hM : ∀ p k, M' (ix2 p k) = M (ix2 (σ p) k)) (hh : ∀ p k, h' (ix2 p k) = h (ix2 (σ p) k))
    (hWl : ∀ k q, Wl' (ix2 k q) = Wl (ix2 k q)) (hWr : ∀ k q, Wr' (ix2 k q) = Wr (ix2 k q))
    (hb : ∀ q, b' (ix2 (0 : Fin 1) q) = b (ix2 (0 : Fin 1) q)) (p : Fin n') (q : Fin 128) :
    layerAt M' h' Wl' Wr' b' p q = layerAt M h Wl Wr b (σ p) q := by
  unfold layerAt
  simp only [hM, hh, hWl, hWr, hb]

/-- A stretch of rows: if `M'`, `h'` hold the rows `off, off + 1, …` of `M`, `h` and the weights and the bias row are the same,
    the layer of `M'`, `h'` at an index `y` is the layer of `M`, `h` at the index `i` that lies `off` rows further down. -/
theorem layer_block {n n' : ℕ} (off : ℕ) (hoff : ∀ p : Fin n', off + p.val < n)
    (M h : FVec Ideal ⟨2, ![n, 128]⟩ .f32) (M' h' : FVec Ideal ⟨2, ![n', 128]⟩ .f32)
    (Wl Wr Wl' Wr' : FVec Ideal ⟨2, ![128, 128]⟩ .f32) (b b' : FVec Ideal ⟨2, ![1, 128]⟩ .f32)
    (hM : ∀ (p : Fin n') (k : Fin 128), M' (ix2 p k) = M (ix2 ⟨off + p.val, hoff p⟩ k))
    (hh : ∀ (p : Fin n') (k : Fin 128), h' (ix2 p k) = h (ix2 ⟨off + p.val, hoff p⟩ k))
    (hWl : ∀ k q, Wl' (ix2 k q) = Wl (ix2 k q)) (hWr : ∀ k q, Wr' (ix2 k q) = Wr (ix2 k q))
    (hb : ∀ q, b' (ix2 (0 : Fin 1) q) = b (ix2 (0 : Fin 1) q))
    (y : (⟨2, ![n', 128]⟩ : Shape).Idx) (i : (⟨2, ![n, 128]⟩ : Shape).Idx)
    (h0 : (i 0).val = off + (y 0).val) (h1 : (i 1).val = (y 1).val) :
    layer M' h' Wl' Wr' b' y = layer M h Wl Wr b i := by
  obtain ⟨p, q, rfl⟩ : ∃ (p : Fin n') (q : Fin 128), y = ix2 p q := ⟨y 0, y 1, eq_ix2 y⟩
  obtain ⟨p', q', rfl⟩ : ∃ (p' : Fin n) (q' : Fin 128), i = ix2 p' q' := ⟨i 0, i 1, eq_ix2 i⟩
  have e0 : p' = ⟨off + p.val, hoff p⟩ := Fin.ext h0
  have e1 : q' = q := Fin.ext h1
  subst e0 e1
  rw [layer_ix2, layer_ix2]
  exact layerAt_rows (fun p => ⟨off + p.val, hoff p⟩) M h M' h' Wl Wr Wl' Wr' b b' hM hh hWl hWr hb p q'

/-- `x * (1 / y) = x / y` on the extended reals for every divisor that is not zero. -/
theorem mul_inv_eq_div (x y : EReal) (hy : y ≠ 0) : x * Ideal.div 1 y = Ideal.div x y := by
  unfold Ideal.div
  rw [if_neg hy, if_neg hy, one_mul]

/-- The float word of one is the number one. -/
theorem ofBits_one : Ideal.ofBits .f32 0x3F800000#32 = (1 : EReal) := by
  simp [Ideal.ofBits, Ideal.ieee]
  rw [← EReal.coe_mul, ← EReal.coe_one]
  norm_num

/-- A maximum with one is not zero. -/
theorem max_one_ne_zero (z : EReal) : max z (Ideal.ofBits .f32 0x3F800000#32) ≠ 0 := by
  rw [ofBits_one]
  have h : (0 : EReal) < max z 1 := lt_of_lt_of_le zero_lt_one (le_max_right z 1)
  exact ne_of_gt h

/-- The aggregate times the reciprocal of the degree (a maximum with one) is the aggregate divided by the degree. -/
theorem mean_mul_eq_div (a z : EReal) :
    a * Ideal.div (Ideal.ofBits .f32 0x3F800000#32) (max z (Ideal.ofBits .f32 0x3F800000#32))
      = Ideal.div a (max z (Ideal.ofBits .f32 0x3F800000#32)) := by
  have h := mul_inv_eq_div a _ (max_one_ne_zero z)
  rw [ofBits_one] at h ⊢
  exact h

end Cert.Sage

end
-- ==== Proof.KBlocks.lean ====
/-
  What each launch of the layer kernel leaves in its two result arrays.

  The kernel runs over 50 tiles of 2000 rows. At tile `t` it reads rows `2000 t … 2000 t + 1999` of the aggregated
  features and of the node features, the two whole weight matrices and the bias row, and writes the same rows of the layer
  (before the rectifier) to its first result and of the rectified layer to its second. A row of the layer depends on that
  row of the two feature matrices only, so each tile's rows are the rows of the layer of the whole arrays, and the 50
  tiles fill the 100000 rows: each result array ends as the layer function of the arrays the launch found.
-/
import proofs.«161956_j21947282883085_1_alg».proof.Proof.PatchedKernelIdealFrame
import proofs.«161956_j21947282883085_1_alg».proof.Proof.Layer
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's arithmetic is the layer function of the blocks it loads -/

theorem hz : (![0, 0] : Fin 2 → Nat) = fun _ => 0 := funext fun a => by fin_cases a <;> rfl

/-- A matrix product of a tile by a weight matrix, after the change of float format (the identity here), at `(p, q)`. -/
theorem tile_dot (l : FVec Ideal S2000x128 .f32) (w : FVec Ideal S128x128 .f32) (p : Fin 2000) (q : Fin 128) :
    matmul dot_S2000x128_S128x128_S2000x128_1_0_0_1_n_n none (truncf .bf16 l bitsLt_bf16_f32) (truncf .bf16 w bitsLt_bf16_f32)
      (constant (F := Ideal) S2000x128 .f32 0x00000000#32) (ix2 p q) = ∑ k : Fin 128, l (ix2 p k) * w (ix2 k q) :=
  Cert.LibPlainDot.matmul_plain_apply dot_S2000x128_S128x128_S2000x128_1_0_0_1_n_n rfl rfl rfl rfl rfl rfl none _ _ p q

/-- The bias row repeated over the tile's rows, at `(p, q)`. -/
theorem tile_bias (b : FVec Ideal S1x128 .f32) (p : Fin 2000) (q : Fin 128) :
    broadcastTo S2000x128 (shapeCast S1x128 b shapeCasts_S1x128_S1x128) broadcasts_S1x128_S2000x128 (ix2 p q) = b (ix2 (0 : Fin 1) q) := by
  rw [Cert.LibColsJoin.bcast_row (by decide), shapeCast_self]

variable (V : (c : Dev nD) → (b : Ref sig .tc) → Buf (Elt Ideal) ((c : Thread nD τ).loc b))

/-! ## Launch 0 -/

theorem pay0_1 (x0 x1 : Vec Ideal S2000x128 .f32) (x2 x3 : Vec Ideal S128x128 .f32) (x4 : Vec Ideal S1x128 .f32) :
    k0_pay1 (F := Ideal) x0 x1 x2 x3 x4 = Cert.Sage.layer x0 x1 x2 x3 x4 := by
  funext j
  obtain ⟨p, q, rfl⟩ : ∃ (p : Fin 2000) (q : Fin 128), j = ix2 p q := ⟨j 0, j 1, eq_ix2 j⟩
  rw [Cert.Sage.layer_ix2]
  unfold k0_pay1 Cert.Sage.layerAt
  rw [addf_apply, addf_apply, shapeCast_self, tile_dot, tile_dot, tile_bias]

theorem pay0_2 (x0 x1 : Vec Ideal S2000x128 .f32) (x2 x3 : Vec Ideal S128x128 .f32) (x4 : Vec Ideal S1x128 .f32) :
    k0_pay2 (F := Ideal) x0 x1 x2 x3 x4 = Cert.Sage.relu (Cert.Sage.layer x0 x1 x2 x3 x4) := by
  funext j
  show max (k0_pay1 (F := Ideal) x0 x1 x2 x3 x4 j) (Ideal.ofBits .f32 0x00000000#32) = max (Cert.Sage.layer x0 x1 x2 x3 x4 j) _
  rw [pay0_1]

/-- The index maps over the 50 tiles: the two feature windows and the two result windows move with the tile, the weights
    and the bias stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 ∧ t.val < 50 :=
  (by decide +kernel : ∀ t : Fin grid0.N, _)

/-- A tile of a feature array holds its rows `2000 t …`. -/
theorem rows0_0 (c : Dev nD) (t : Fin cfg0.N) (p : Fin 2000) (k : Fin 128) (hp : t.val * 2000 + p.val < 100000) :
    iblk0 V c 0 t (ix2 p k) = V c main_v20 (ix2 ⟨t.val * 2000 + p.val, hp⟩ k) := by
  obtain ⟨e0, e1, -⟩ := idx0 t
  show V c main_v20 (((cfg0.win 0).blk t).view.emb (ix2 p k)) = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem rows0_1 (c : Dev nD) (t : Fin cfg0.N) (p : Fin 2000) (k : Fin 128) (hp : t.val * 2000 + p.val < 100000) :
    iblk0 V c 1 t (ix2 p k) = V c main_arg0 (ix2 ⟨t.val * 2000 + p.val, hp⟩ k) := by
  obtain ⟨-, -, e0, e1, -⟩ := idx0 t
  show V c main_arg0 (((cfg0.win 1).blk t).view.emb (ix2 p k)) = _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Every tile holds the whole of each weight matrix and of the bias row. -/
theorem whole0_2 (c : Dev nD) (t : Fin cfg0.N) (k q : Fin 128) :
    iblk0 V c 2 t (ix2 k q) = V c main_arg3 (ix2 k q) := by
  obtain ⟨-, -, -, -, e0, e1, -⟩ := idx0 t
  show V c main_arg3 (((cfg0.win 2).blk t).view.emb (ix2 k q)) = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem whole0_3 (c : Dev nD) (t : Fin cfg0.N) (k q : Fin 128) :
    iblk0 V c 3 t (ix2 k q) = V c main_arg4 (ix2 k q) := by
  obtain ⟨-, -, -, -, -, -, e0, e1, -⟩ := idx0 t
  show V c main_arg4 (((cfg0.win 3).blk t).view.emb (ix2 k q)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem whole0_4 (c : Dev nD) (t : Fin cfg0.N) (q : Fin 128) :
    iblk0 V c 4 t (ix2 (0 : Fin 1) q) = V c main_v21 (ix2 (0 : Fin 1) q) := by
  obtain ⟨-, -, -, -, -, -, -, -, e0, e1, -⟩ := idx0 t
  show V c main_v21 (((cfg0.win 4).blk t).view.emb (ix2 (0 : Fin 1) q)) = _
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

/-- The layer of a tile's blocks, at a local index, is the layer of the arrays at the index's place in the array. -/
theorem tile0 (c : Dev nD) (t : Fin cfg0.N) (w : ℕ) (hw : w = t.val) (y : S2000x128.Idx) (i : S100000x128.Idx)
    (h0 : (i 0).val = w * 2000 + (y 0).val) (h1 : (i 1).val = (y 1).val) :
    Cert.Sage.layer (iblk0 V c 0 t) (iblk0 V c 1 t) (iblk0 V c 2 t) (iblk0 V c 3 t) (iblk0 V c 4 t) y
      = Cert.Sage.layer (V c main_v20) (V c main_arg0) (V c main_arg3) (V c main_arg4) (V c main_v21) i := by
  subst hw
  have ht : t.val < 50 := (idx0 t).2.2.2.2.2.2.2.2.2.2.2.2.2.2
  have hoff : ∀ p : Fin 2000, t.val * 2000 + p.val < 100000 := fun p => by have := p.isLt; omega
  exact Cert.Sage.layer_block (t.val * 2000) hoff (V c main_v20) (V c main_arg0) (iblk0 V c 0 t) (iblk0 V c 1 t)
    (V c main_arg3) (V c main_arg4) (iblk0 V c 2 t) (iblk0 V c 3 t) (V c main_v21) (iblk0 V c 4 t)
    (fun p k => rows0_0 V c t p k (hoff p)) (fun p k => rows0_1 V c t p k (hoff p))
    (fun k q => whole0_2 V c t k q) (fun k q => whole0_3 V c t k q) (fun q => whole0_4 V c t q) y i h0 h1

/-- Every block row of the array is some tile's. -/
theorem onto0 : ∀ q0 : Fin 50, ∃ t : Fin cfg0.N, t.val = q0.val :=
  (by decide +kernel : ∀ q0 : Fin 50, ∃ t : Fin grid0.N, t.val = q0.val)

/-- What tile `t` writes back to result 1 is tile `t` of the rectified layer of the arrays the launch found. -/
theorem flushed0_6 (c : Dev nD) (t : Fin cfg0.N) :
    (dat0 V c).flushed 6 t = ((cfg0.win 6).blk t).view.read (Elt Ideal) (Cert.Sage.relu (Cert.Sage.layer (V c main_v20) (V c main_arg0) (V c main_arg3) (V c main_arg4) (V c main_v21))) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  obtain ⟨-, -, -, -, -, -, -, -, -, -, -, -, e0, e1, -⟩ := idx0 t
  rw [pay0_2]
  funext j
  show max (Cert.Sage.layer (iblk0 V c 0 t) (iblk0 V c 1 t) (iblk0 V c 2 t) (iblk0 V c 3 t) (iblk0 V c 4 t) j) (Ideal.ofBits .f32 0x00000000#32)
    = max (Cert.Sage.layer (V c main_v20) (V c main_arg0) (V c main_arg3) (V c main_arg4) (V c main_v21) (((cfg0.win 6).blk t).view.emb j)) (Ideal.ofBits .f32 0x00000000#32)
  refine congrArg (fun z => max z (Ideal.ofBits .f32 0x00000000#32)) (tile0 V c t (win0_6.index t (0 : Fin 2)) e0 j _ ?_ ?_)
  · show win0_6.index t (0 : Fin 2) * 2000 + 1 * (j 0).val = win0_6.index t (0 : Fin 2) * 2000 + (j 0).val; omega
  · show win0_6.index t (1 : Fin 2) * 128 + 1 * (j 1).val = (j 1).val; rw [e1]; omega

/-- An index of the array is in tile `t`'s block iff each coordinate is in the block's range on its axis. -/
theorem mem_blk0_6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_1).slice (win0_6.rect t)).set ↔ _
  rw [View.set_slice_whole, Rect.mem_set_unit]
  exact Iff.rfl

/-- The 50 tiles fill the array. -/
theorem covered0_6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := onto0 ⟨(i 0).val / 2000, by omega⟩
  have ht' : t.val = (i 0).val / 2000 := ht
  obtain ⟨-, -, -, -, -, -, -, -, -, -, -, -, e0, e1, -⟩ := idx0 t
  refine ⟨t, flush0_6 t, ?_⟩
  rw [mem_blk0_6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- RESULT 1 OF LAUNCH 0: the rectified layer of the arrays the launch found. -/
theorem final0_6 (c : Dev nD) :
    (dat0 V c).arrAt 6 cfg0.N = (Cert.Sage.relu (Cert.Sage.layer (V c main_v20) (V c main_arg0) (V c main_arg3) (V c main_arg4) (V c main_v21))) :=
  (dat0 V c).arrAt_eq_of_cover 6 _ (fun t _ => flushed0_6 V c t) covered0_6

/-- The same, with the arrays the launch found given by equations. -/
theorem final0_6' (c : Dev nD) {M : Buf (Elt Ideal) ((c : Thread nD τ).loc main_v20)} {h : Buf (Elt Ideal) ((c : Thread nD τ).loc main_arg0)}
    {Wl : Buf (Elt Ideal) ((c : Thread nD τ).loc main_arg3)} {Wr : Buf (Elt Ideal) ((c : Thread nD τ).loc main_arg4)}
    {b : Buf (Elt Ideal) ((c : Thread nD τ).loc main_v21)}
    (hM : V c main_v20 = M) (hh : V c main_arg0 = h) (hWl : V c main_arg3 = Wl) (hWr : V c main_arg4 = Wr) (hb : V c main_v21 = b) :
    (dat0 V c).arrAt 6 cfg0.N = Cert.Sage.relu (Cert.Sage.layer M h Wl Wr b) := by
  subst hM hh hWl hWr hb
  exact final0_6 V c

/-! ## Launch 1 -/

theorem pay1_1 (x0 x1 : Vec Ideal S2000x128 .f32) (x2 x3 : Vec Ideal S128x128 .f32) (x4 : Vec Ideal S1x128 .f32) :
    k1_pay1 (F := Ideal) x0 x1 x2 x3 x4 = Cert.Sage.layer x0 x1 x2 x3 x4 := by
  funext j
  obtain ⟨p, q, rfl⟩ : ∃ (p : Fin 2000) (q : Fin 128), j = ix2 p q := ⟨j 0, j 1, eq_ix2 j⟩
  rw [Cert.Sage.layer_ix2]
  unfold k1_pay1 Cert.Sage.layerAt
  rw [addf_apply, addf_apply, shapeCast_self, shapeCast_self, tile_dot, tile_dot, tile_bias]

theorem pay1_2 (x0 x1 : Vec Ideal S2000x128 .f32) (x2 x3 : Vec Ideal S128x128 .f32) (x4 : Vec Ideal S1x128 .f32) :
    k1_pay2 (F := Ideal) x0 x1 x2 x3 x4 = Cert.Sage.relu (Cert.Sage.layer x0 x1 x2 x3 x4) := by
  funext j
  show max (k1_pay1 (F := Ideal) x0 x1 x2 x3 x4 j) (Ideal.ofBits .f32 0x00000000#32) = max (Cert.Sage.layer x0 x1 x2 x3 x4 j) _
  rw [pay1_1]

/-- The index maps over the 50 tiles: the two feature windows and the two result windows move with the tile, the weights
    and the bias stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 ∧ t.val < 50 :=
  (by decide +kernel : ∀ t : Fin grid1.N, _)

/-- A tile of a feature array holds its rows `2000 t …`. -/
theorem rows1_0 (c : Dev nD) (t : Fin cfg1.N) (p : Fin 2000) (k : Fin 128) (hp : t.val * 2000 + p.val < 100000) :
    iblk1 V c 0 t (ix2 p k) = V c main_v35 (ix2 ⟨t.val * 2000 + p.val, hp⟩ k) := by
  obtain ⟨e0, e1, -⟩ := idx1 t
  show V c main_v35 (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

theorem rows1_1 (c : Dev nD) (t : Fin cfg1.N) (p : Fin 2000) (k : Fin 128) (hp : t.val * 2000 + p.val < 100000) :
    iblk1 V c 1 t (ix2 p k) = V c main_v22_1 (ix2 ⟨t.val * 2000 + p.val, hp⟩ k) := by
  obtain ⟨-, -, e0, e1, -⟩ := idx1 t
  show V c main_v22_1 (((cfg1.win 1).blk t).view.emb (ix2 p k)) = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- Every tile holds the whole of each weight matrix and of the bias row. -/
theorem whole1_2 (c : Dev nD) (t : Fin cfg1.N) (k q : Fin 128) :
    iblk1 V c 2 t (ix2 k q) = V c main_arg6 (ix2 k q) := by
  obtain ⟨-, -, -, -, e0, e1, -⟩ := idx1 t
  show V c main_arg6 (((cfg1.win 2).blk t).view.emb (ix2 k q)) = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem whole1_3 (c : Dev nD) (t : Fin cfg1.N) (k q : Fin 128) :
    iblk1 V c 3 t (ix2 k q) = V c main_arg7 (ix2 k q) := by
  obtain ⟨-, -, -, -, -, -, e0, e1, -⟩ := idx1 t
  show V c main_arg7 (((cfg1.win 3).blk t).view.emb (ix2 k q)) = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem whole1_4 (c : Dev nD) (t : Fin cfg1.N) (q : Fin 128) :
    iblk1 V c 4 t (ix2 (0 : Fin 1) q) = V c main_v36 (ix2 (0 : Fin 1) q) := by
  obtain ⟨-, -, -, -, -, -, -, -, e0, e1, -⟩ := idx1 t
  show V c main_v36 (((cfg1.win 4).blk t).view.emb (ix2 (0 : Fin 1) q)) = _
  refine congrArg _ (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 128 + 1 * q.val = q.val; rw [e1]; omega

/-- The layer of a tile's blocks, at a local index, is the layer of the arrays at the index's place in the array. -/
theorem tile1 (c : Dev nD) (t : Fin cfg1.N) (w : ℕ) (hw : w = t.val) (y : S2000x128.Idx) (i : S100000x128.Idx)
    (h0 : (i 0).val = w * 2000 + (y 0).val) (h1 : (i 1).val = (y 1).val) :
    Cert.Sage.layer (iblk1 V c 0 t) (iblk1 V c 1 t) (iblk1 V c 2 t) (iblk1 V c 3 t) (iblk1 V c 4 t) y
      = Cert.Sage.layer (V c main_v35) (V c main_v22_1) (V c main_arg6) (V c main_arg7) (V c main_v36) i := by
  subst hw
  have ht : t.val < 50 := (idx1 t).2.2.2.2.2.2.2.2.2.2.2.2.2.2
  have hoff : ∀ p : Fin 2000, t.val * 2000 + p.val < 100000 := fun p => by have := p.isLt; omega
  exact Cert.Sage.layer_block (t.val * 2000) hoff (V c main_v35) (V c main_v22_1) (iblk1 V c 0 t) (iblk1 V c 1 t)
    (V c main_arg6) (V c main_arg7) (iblk1 V c 2 t) (iblk1 V c 3 t) (V c main_v36) (iblk1 V c 4 t)
    (fun p k => rows1_0 V c t p k (hoff p)) (fun p k => rows1_1 V c t p k (hoff p))
    (fun k q => whole1_2 V c t k q) (fun k q => whole1_3 V c t k q) (fun q => whole1_4 V c t q) y i h0 h1

/-- Every block row of the array is some tile's. -/
theorem onto1 : ∀ q0 : Fin 50, ∃ t : Fin cfg1.N, t.val = q0.val :=
  (by decide +kernel : ∀ q0 : Fin 50, ∃ t : Fin grid1.N, t.val = q0.val)

/-- What tile `t` writes back to result 0 is tile `t` of the layer of the arrays the launch found. -/
theorem flushed1_5 (c : Dev nD) (t : Fin cfg1.N) :
    (dat1 V c).flushed 5 t = ((cfg1.win 5).blk t).view.read (Elt Ideal) (Cert.Sage.layer (V c main_v35) (V c main_v22_1) (V c main_arg6) (V c main_arg7) (V c main_v36)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨-, -, -, -, -, -, -, -, -, -, e0, e1, -⟩ := idx1 t
  rw [pay1_1]
  funext j
  show Cert.Sage.layer (iblk1 V c 0 t) (iblk1 V c 1 t) (iblk1 V c 2 t) (iblk1 V c 3 t) (iblk1 V c 4 t) j
    = Cert.Sage.layer (V c main_v35) (V c main_v22_1) (V c main_arg6) (V c main_arg7) (V c main_v36) (((cfg1.win 5).blk t).view.emb j)
  refine tile1 V c t (win1_5.index t (0 : Fin 2)) e0 j _ ?_ ?_
  · show win1_5.index t (0 : Fin 2) * 2000 + 1 * (j 0).val = win1_5.index t (0 : Fin 2) * 2000 + (j 0).val; omega
  · show win1_5.index t (1 : Fin 2) * 128 + 1 * (j 1).val = (j 1).val; rw [e1]; omega

/-- An index of the array is in tile `t`'s block iff each coordinate is in the block's range on its axis. -/
theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v37_0).slice (win1_5.rect t)).set ↔ _
  rw [View.set_slice_whole, Rect.mem_set_unit]
  exact Iff.rfl

/-- The 50 tiles fill the array. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto1 ⟨(i 0).val / 2000, by omega⟩
  have ht' : t.val = (i 0).val / 2000 := ht
  obtain ⟨-, -, -, -, -, -, -, -, -, -, e0, e1, -⟩ := idx1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- RESULT 0 OF LAUNCH 1: the layer of the arrays the launch found. -/
theorem final1_5 (c : Dev nD) :
    (dat1 V c).arrAt 5 cfg1.N = (Cert.Sage.layer (V c main_v35) (V c main_v22_1) (V c main_arg6) (V c main_arg7) (V c main_v36)) :=
  (dat1 V c).arrAt_eq_of_cover 5 _ (fun t _ => flushed1_5 V c t) covered1_5

/-- The same, with the arrays the launch found given by equations. -/
theorem final1_5' (c : Dev nD) {M : Buf (Elt Ideal) ((c : Thread nD τ).loc main_v35)} {h : Buf (Elt Ideal) ((c : Thread nD τ).loc main_v22_1)}
    {Wl : Buf (Elt Ideal) ((c : Thread nD τ).loc main_arg6)} {Wr : Buf (Elt Ideal) ((c : Thread nD τ).loc main_arg7)}
    {b : Buf (Elt Ideal) ((c : Thread nD τ).loc main_v36)}
    (hM : V c main_v35 = M) (hh : V c main_v22_1 = h) (hWl : V c main_arg6 = Wl) (hWr : V c main_arg7 = Wr) (hb : V c main_v36 = b) :
    (dat1 V c).arrAt 5 cfg1.N = Cert.Sage.layer M h Wl Wr b := by
  subst hM hh hWl hWr hb
  exact final1_5 V c

/-- What tile `t` writes back to result 1 is tile `t` of the rectified layer of the arrays the launch found. -/
theorem flushed1_6 (c : Dev nD) (t : Fin cfg1.N) :
    (dat1 V c).flushed 6 t = ((cfg1.win 6).blk t).view.read (Elt Ideal) (Cert.Sage.relu (Cert.Sage.layer (V c main_v35) (V c main_v22_1) (V c main_arg6) (V c main_arg7) (V c main_v36))) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  obtain ⟨-, -, -, -, -, -, -, -, -, -, -, -, e0, e1, -⟩ := idx1 t
  rw [pay1_2]
  funext j
  show max (Cert.Sage.layer (iblk1 V c 0 t) (iblk1 V c 1 t) (iblk1 V c 2 t) (iblk1 V c 3 t) (iblk1 V c 4 t) j) (Ideal.ofBits .f32 0x00000000#32)
    = max (Cert.Sage.layer (V c main_v35) (V c main_v22_1) (V c main_arg6) (V c main_arg7) (V c main_v36) (((cfg1.win 6).blk t).view.emb j)) (Ideal.ofBits .f32 0x00000000#32)
  refine congrArg (fun z => max z (Ideal.ofBits .f32 0x00000000#32)) (tile1 V c t (win1_6.index t (0 : Fin 2)) e0 j _ ?_ ?_)
  · show win1_6.index t (0 : Fin 2) * 2000 + 1 * (j 0).val = win1_6.index t (0 : Fin 2) * 2000 + (j 0).val; omega
  · show win1_6.index t (1 : Fin 2) * 128 + 1 * (j 1).val = (j 1).val; rw [e1]; omega

/-- An index of the array is in tile `t`'s block iff each coordinate is in the block's range on its axis. -/
theorem mem_blk1_6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v37_1).slice (win1_6.rect t)).set ↔ _
  rw [View.set_slice_whole, Rect.mem_set_unit]
  exact Iff.rfl

/-- The 50 tiles fill the array. -/
theorem covered1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := onto1 ⟨(i 0).val / 2000, by omega⟩
  have ht' : t.val = (i 0).val / 2000 := ht
  obtain ⟨-, -, -, -, -, -, -, -, -, -, -, -, e0, e1, -⟩ := idx1 t
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- RESULT 1 OF LAUNCH 1: the rectified layer of the arrays the launch found. -/
theorem final1_6 (c : Dev nD) :
    (dat1 V c).arrAt 6 cfg1.N = (Cert.Sage.relu (Cert.Sage.layer (V c main_v35) (V c main_v22_1) (V c main_arg6) (V c main_arg7) (V c main_v36))) :=
  (dat1 V c).arrAt_eq_of_cover 6 _ (fun t _ => flushed1_6 V c t) covered1_6

/-- The same, with the arrays the launch found given by equations. -/
theorem final1_6' (c : Dev nD) {M : Buf (Elt Ideal) ((c : Thread nD τ).loc main_v35)} {h : Buf (Elt Ideal) ((c : Thread nD τ).loc main_v22_1)}
    {Wl : Buf (Elt Ideal) ((c : Thread nD τ).loc main_arg6)} {Wr : Buf (Elt Ideal) ((c : Thread nD τ).loc main_arg7)}
    {b : Buf (Elt Ideal) ((c : Thread nD τ).loc main_v36)}
    (hM : V c main_v35 = M) (hh : V c main_v22_1 = h) (hWl : V c main_arg6 = Wl) (hWr : V c main_arg7 = Wr) (hb : V c main_v36 = b) :
    (dat1 V c).arrAt 6 cfg1.N = Cert.Sage.relu (Cert.Sage.layer M h Wl Wr b) := by
  subst hM hh hWl hWr hb
  exact final1_6 V c

/-! ## Launch 2 -/

theorem pay2_1 (x0 x1 : Vec Ideal S2000x128 .f32) (x2 x3 : Vec Ideal S128x128 .f32) (x4 : Vec Ideal S1x128 .f32) :
    k2_pay1 (F := Ideal) x0 x1 x2 x3 x4 = Cert.Sage.layer x0 x1 x2 x3 x4 := by
  funext j
  obtain ⟨p, q, rfl⟩ : ∃ (p : Fin 2000) (q : Fin 128), j = ix2 p q := ⟨j 0, j 1, eq_ix2 j⟩
  rw [Cert.Sage.layer_ix2]
  unfold k2_pay1 Cert.Sage.layerAt
  rw [addf_apply, addf_apply, shapeCast_self, shapeCast_self, tile_dot, tile_dot, tile_bias]

theorem pay2_2 (x0 x1 : Vec Ideal S2000x128 .f32) (x2 x3 : Vec Ideal S128x128 .f32) (x4 : Vec Ideal S1x128 .f32) :
    k2_pay2 (F := Ideal) x0 x1 x2 x3 x4 = Cert.Sage.relu (Cert.Sage.layer x0 x1 x2 x3 x4) := by
  funext j
  show max (k2_pay1 (F := Ideal) x0 x1 x2 x3 x4 j) (Ideal.ofBits .f32 0x00000000#32) = max (Cert.Sage.layer x0 x1 x2 x3 x4 j) _
  rw [pay2_1]

/-- The index maps over the 50 tiles: the two feature windows and the two result windows move with the tile, the weights
    and the bias stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 ∧ t.val < 50 :=
  (by decide +kernel : ∀ t : Fin grid2.N, _)

/-- A tile of a feature array holds its rows `2000 t …`. -/
theorem rows2_0 (c : Dev nD) (t : Fin cfg2.N) (p : Fin 2000) (k : Fin 128) (hp : t.val * 2000 + p.val < 100000) :
    iblk2 V c 0 t (ix2 p k) = V c main_v50 (ix2 ⟨t.val * 2000 + p.val, hp⟩ k) := by
  obtain ⟨e0, e1, -⟩ := idx2 t
  show V c main_v50 (((cfg2.win 0).blk t).view.emb (ix2 p k)) = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

theorem rows2_1 (c : Dev nD) (t : Fin cfg2.N) (p : Fin 2000) (k : Fin 128) (hp : t.val * 2000 + p.val < 100000) :
    iblk2 V c 1 t (ix2 p k) = V c main_v37_1 (ix2 ⟨t.val * 2000 + p.val, hp⟩ k) := by
  obtain ⟨-, -, e0, e1, -⟩ := idx2 t
  show V c main_v37_1 (((cfg2.win 1).blk t).view.emb (ix2 p k)) = _
  refine congrArg _ (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

/-- Every tile holds the whole of each weight matrix and of the bias row. -/
theorem whole2_2 (c : Dev nD) (t : Fin cfg2.N) (k q : Fin 128) :
    iblk2 V c 2 t (ix2 k q) = V c main_arg9 (ix2 k q) := by
  obtain ⟨-, -, -, -, e0, e1, -⟩ := idx2 t
  show V c main_arg9 (((cfg2.win 2).blk t).view.emb (ix2 k q)) = _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

theorem whole2_3 (c : Dev nD) (t : Fin cfg2.N) (k q : Fin 128) :
    iblk2 V c 3 t (ix2 k q) = V c main_arg10 (ix2 k q) := by
  obtain ⟨-, -, -, -, -, -, e0, e1, -⟩ := idx2 t
  show V c main_arg10 (((cfg2.win 3).blk t).view.emb (ix2 k q)) = _
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

theorem whole2_4 (c : Dev nD) (t : Fin cfg2.N) (q : Fin 128) :
    iblk2 V c 4 t (ix2 (0 : Fin 1) q) = V c main_v51 (ix2 (0 : Fin 1) q) := by
  obtain ⟨-, -, -, -, -, -, -, -, e0, e1, -⟩ := idx2 t
  show V c main_v51 (((cfg2.win 4).blk t).view.emb (ix2 (0 : Fin 1) q)) = _
  refine congrArg _ (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 128 + 1 * q.val = q.val; rw [e1]; omega

/-- The layer of a tile's blocks, at a local index, is the layer of the arrays at the index's place in the array. -/
theorem tile2 (c : Dev nD) (t : Fin cfg2.N) (w : ℕ) (hw : w = t.val) (y : S2000x128.Idx) (i : S100000x128.Idx)
    (h0 : (i 0).val = w * 2000 + (y 0).val) (h1 : (i 1).val = (y 1).val) :
    Cert.Sage.layer (iblk2 V c 0 t) (iblk2 V c 1 t) (iblk2 V c 2 t) (iblk2 V c 3 t) (iblk2 V c 4 t) y
      = Cert.Sage.layer (V c main_v50) (V c main_v37_1) (V c main_arg9) (V c main_arg10) (V c main_v51) i := by
  subst hw
  have ht : t.val < 50 := (idx2 t).2.2.2.2.2.2.2.2.2.2.2.2.2.2
  have hoff : ∀ p : Fin 2000, t.val * 2000 + p.val < 100000 := fun p => by have := p.isLt; omega
  exact Cert.Sage.layer_block (t.val * 2000) hoff (V c main_v50) (V c main_v37_1) (iblk2 V c 0 t) (iblk2 V c 1 t)
    (V c main_arg9) (V c main_arg10) (iblk2 V c 2 t) (iblk2 V c 3 t) (V c main_v51) (iblk2 V c 4 t)
    (fun p k => rows2_0 V c t p k (hoff p)) (fun p k => rows2_1 V c t p k (hoff p))
    (fun k q => whole2_2 V c t k q) (fun k q => whole2_3 V c t k q) (fun q => whole2_4 V c t q) y i h0 h1

/-- Every block row of the array is some tile's. -/
theorem onto2 : ∀ q0 : Fin 50, ∃ t : Fin cfg2.N, t.val = q0.val :=
  (by decide +kernel : ∀ q0 : Fin 50, ∃ t : Fin grid2.N, t.val = q0.val)

/-- What tile `t` writes back to result 0 is tile `t` of the layer of the arrays the launch found. -/
theorem flushed2_5 (c : Dev nD) (t : Fin cfg2.N) :
    (dat2 V c).flushed 5 t = ((cfg2.win 5).blk t).view.read (Elt Ideal) (Cert.Sage.layer (V c main_v50) (V c main_v37_1) (V c main_arg9) (V c main_arg10) (V c main_v51)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨-, -, -, -, -, -, -, -, -, -, e0, e1, -⟩ := idx2 t
  rw [pay2_1]
  funext j
  show Cert.Sage.layer (iblk2 V c 0 t) (iblk2 V c 1 t) (iblk2 V c 2 t) (iblk2 V c 3 t) (iblk2 V c 4 t) j
    = Cert.Sage.layer (V c main_v50) (V c main_v37_1) (V c main_arg9) (V c main_arg10) (V c main_v51) (((cfg2.win 5).blk t).view.emb j)
  refine tile2 V c t (win2_5.index t (0 : Fin 2)) e0 j _ ?_ ?_
  · show win2_5.index t (0 : Fin 2) * 2000 + 1 * (j 0).val = win2_5.index t (0 : Fin 2) * 2000 + (j 0).val; omega
  · show win2_5.index t (1 : Fin 2) * 128 + 1 * (j 1).val = (j 1).val; rw [e1]; omega

/-- An index of the array is in tile `t`'s block iff each coordinate is in the block's range on its axis. -/
theorem mem_blk2_5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v52_0).slice (win2_5.rect t)).set ↔ _
  rw [View.set_slice_whole, Rect.mem_set_unit]
  exact Iff.rfl

/-- The 50 tiles fill the array. -/
theorem covered2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := onto2 ⟨(i 0).val / 2000, by omega⟩
  have ht' : t.val = (i 0).val / 2000 := ht
  obtain ⟨-, -, -, -, -, -, -, -, -, -, e0, e1, -⟩ := idx2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- RESULT 0 OF LAUNCH 2: the layer of the arrays the launch found. -/
theorem final2_5 (c : Dev nD) :
    (dat2 V c).arrAt 5 cfg2.N = (Cert.Sage.layer (V c main_v50) (V c main_v37_1) (V c main_arg9) (V c main_arg10) (V c main_v51)) :=
  (dat2 V c).arrAt_eq_of_cover 5 _ (fun t _ => flushed2_5 V c t) covered2_5

/-- The same, with the arrays the launch found given by equations. -/
theorem final2_5' (c : Dev nD) {M : Buf (Elt Ideal) ((c : Thread nD τ).loc main_v50)} {h : Buf (Elt Ideal) ((c : Thread nD τ).loc main_v37_1)}
    {Wl : Buf (Elt Ideal) ((c : Thread nD τ).loc main_arg9)} {Wr : Buf (Elt Ideal) ((c : Thread nD τ).loc main_arg10)}
    {b : Buf (Elt Ideal) ((c : Thread nD τ).loc main_v51)}
    (hM : V c main_v50 = M) (hh : V c main_v37_1 = h) (hWl : V c main_arg9 = Wl) (hWr : V c main_arg10 = Wr) (hb : V c main_v51 = b) :
    (dat2 V c).arrAt 5 cfg2.N = Cert.Sage.layer M h Wl Wr b := by
  subst hM hh hWl hWr hb
  exact final2_5 V c

end Cert.KernelIdeal.Blocks

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.Spec.lean ====
/-
  The reference program's layer, and its bridge to the layer function.

  Both programs aggregate neighbour features with the same host operations: a gather of the rows `src` (negative row
  numbers wrapped by the number of nodes), a scatter-add of those rows at the rows `dst`, and the in-degree as a
  scatter-add of ones, replaced by one where it is smaller. They differ in two places. One program multiplies the
  aggregate by the reciprocal of that degree, the other divides by it: the degree is a maximum with one, hence not zero,
  and `a * (1 / d) = a / d` on the extended reals for every such `d`. One adds the bias after both matrix products, the
  other between them: `(u + v) + w = (u + w) + v`. No finiteness of the inputs is used.
-/
import proofs.«161956_j21947282883085_1_alg».proof.ReferenceIdeal
import proofs.«161956_j21947282883085_1_alg».proof.Proof.Gen.ReferenceIdeal
import proofs.«161956_j21947282883085_1_alg».proof.Proof.Layer
import proofs.«161956_j21947282883085_1_alg».proof.Proof.LibGcnLayer
import Idealize.ShloMosaic.Lib.IdealHost

noncomputable section

namespace Cert.Sage.Spec

open Cert.ReferenceIdeal Cert.ReferenceIdeal.Gen Idealize.ShloMosaic Idealize.ShloMosaic.ValueIdx
open scoped BigOperators

abbrev Feat := FVec Ideal S100000x128 .f32
abbrev Edge := IVec S1600000 32
abbrev Wt := FVec Ideal S128x128 .f32
abbrev Bias := FVec Ideal S128 .f32
abbrev Node := FVec Ideal S100000 .f32
abbrev Row := FVec Ideal S1x128 .f32

/-- The source rows with negative numbers wrapped by the number of nodes. -/
def wrap (a1 : Edge) : Edge :=
  select (cmpi .slt a1 (broadcastInDim S1600000 ![] bcast_S_S1600000 (constantI S_ 32 0#32)))
    (addi a1 (broadcastInDim S1600000 ![] bcast_S_S1600000 (constantI S_ 32 100000#32))) a1

/-- The sum, at every node, of the features of the sources of the edges that end there. -/
def agg (h : Feat) (a1 a2 : Edge) : Feat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a2)
    (Host.gather gather_S100000x128_S1600000x1_S1600000x128_1_0_n_n_0_1_1128 h
      (broadcastInDim S1600000x1 ![0] bcast_S1600000_S1600000x1_0 (wrap a1)))

/-- The in-degree of every node: a one added at the end of every edge. -/
def deg (a2 : Edge) : Node :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 a2)
    (broadcastInDim S1600000 ![] bcast_S_S1600000 (constant (F := Ideal) S_ .f32 0x3F800000#32))

/-- The in-degree of every node, replaced by one where it is smaller. -/
def degm (a2 : Edge) : Node :=
  maximumf (deg a2) (broadcastInDim S100000 ![] bcast_S_S100000 (constant (F := Ideal) S_ .f32 0x3F800000#32))

/-- A value per node repeated over the 128 columns. -/
def spread (v : Node) : Feat :=
  broadcastInDim S100000x128 ![0, 1] bcast_S100000x1_S100000x128_0_1 (broadcastInDim S100000x1 ![0] bcast_S100000_S100000x1_0 v)

/-- The reciprocal of the degree. -/
def dinv (a2 : Edge) : Node :=
  Host.divf (broadcastInDim S100000 ![] bcast_S_S100000 (constant (F := Ideal) S_ .f32 0x3F800000#32)) (degm a2)

/-- The mean of the neighbours' features, by a product with a reciprocal held in `dv`. -/
def meanMul (h : Feat) (a1 a2 : Edge) (dv : Node) : Feat := mulf (agg h a1 a2) (spread dv)

/-- The mean of the neighbours' features, by a quotient. -/
def meanDiv (h : Feat) (a1 a2 : Edge) : Feat := Host.divf (agg h a1 a2) (spread (degm a2))

/-- The reference's layer: the mean times `Wl`, plus the bias, plus the features times `Wr`. -/
def refLayer (h : Feat) (a1 a2 : Edge) (Wl Wr : Wt) (b : Bias) : Feat :=
  addf (addf (Host.dotGeneral dot_S100000x128_S128x128_S100000x128_1_0_0_1_n_n none (meanDiv h a1 a2) Wl)
      (broadcastInDim S100000x128 ![0, 1] bcast_S1x128_S100000x128_0_1 (broadcastInDim S1x128 ![1] bcast_S128_S1x128_1 b)))
    (Host.dotGeneral dot_S100000x128_S128x128_S100000x128_1_0_0_1_n_n none h Wr)

/-- The reference's rectifier. -/
def refRelu (h : Feat) : Feat :=
  maximumf h (broadcastInDim S100000x128 ![] bcast_S_S100000x128 (constant (F := Ideal) S_ .f32 0x00000000#32))

/-- The bias as a row. -/
def biasRow (b : Bias) : Row := shapeCast S1x128 b (by decide)

/-- A value per node repeated over the columns reads, at `(p, q)`, node `p`'s value. -/
theorem spread_apply (v : Node) (p : Fin 100000) (q : Fin 128) : spread v (ix2 p q) = v (ix1 p) := by
  unfold spread
  rw [Cert.LibGcnLayer.bcastCols_apply, Cert.LibGcnLayer.bcastCol_apply]

/-- The degree used is a maximum with one. -/
theorem degm_apply (a2 : Edge) (j : S100000.Idx) : degm a2 j = max (deg a2 j) (Ideal.ofBits .f32 0x3F800000#32) := by
  unfold degm
  rw [maximumf_apply, broadcastInDim_scalar_apply, constant_apply]

/-- Its reciprocal is one over it. -/
theorem dinv_apply (a2 : Edge) (j : S100000.Idx) :
    dinv a2 j = Ideal.div (Ideal.ofBits .f32 0x3F800000#32) (max (deg a2 j) (Ideal.ofBits .f32 0x3F800000#32)) := by
  unfold dinv
  rw [hostDivf_apply, degm_apply, broadcastInDim_scalar_apply, constant_apply]

/-- The two spellings of the mean are one array. -/
theorem meanMul_eq (h : Feat) (a1 a2 : Edge) : meanMul h a1 a2 (dinv a2) = meanDiv h a1 a2 := by
  funext i
  obtain ⟨p, q, rfl⟩ : ∃ (p : Fin 100000) (q : Fin 128), i = ix2 p q := ⟨i 0, i 1, eq_ix2 i⟩
  unfold meanMul meanDiv
  rw [mulf_apply, hostDivf_apply, spread_apply, spread_apply]
  rw [degm_apply, dinv_apply]
  exact Cert.Sage.mean_mul_eq_div _ _

/-- The reference's rectifier is the entrywise maximum with the float zero. -/
theorem refRelu_eq (h : Feat) : refRelu h = Cert.Sage.relu h := rfl

/-- The reference's layer is the layer function of the mean, the features, the weights and the bias row. -/
theorem refLayer_eq (h : Feat) (a1 a2 : Edge) (Wl Wr : Wt) (b : Bias) :
    refLayer h a1 a2 Wl Wr b = Cert.Sage.layer (meanDiv h a1 a2) h Wl Wr (biasRow b) := by
  funext i
  obtain ⟨p, q, rfl⟩ : ∃ (p : Fin 100000) (q : Fin 128), i = ix2 p q := ⟨i 0, i 1, eq_ix2 i⟩
  rw [Cert.Sage.layer_ix2]
  unfold refLayer Cert.Sage.layerAt biasRow
  rw [addf_apply, addf_apply,
    Cert.LibHostDense.hostDot_plain_apply _ rfl rfl rfl rfl rfl rfl,
    Cert.LibHostDense.hostDot_plain_apply _ rfl rfl rfl rfl rfl rfl,
    Cert.LibHostDense.bcastRows_apply, Cert.LibHostDense.bcastRow_apply, Cert.LibRow.row_apply]
  exact add_right_comm _ _ _

/-! ## The two programs' networks -/

/-- The features after the first layer and its rectifier, the mean taken by a product with the reciprocal degree. -/
def kH1 (x : Feat) (a1 a2 : Edge) (Wl1 Wr1 : Wt) (b1 : Bias) : Feat :=
  Cert.Sage.relu (Cert.Sage.layer (meanMul x a1 a2 (dinv a2)) x Wl1 Wr1 (biasRow b1))

/-- The second layer before its rectifier (the first result), the same way. -/
def kP2 (x : Feat) (a1 a2 : Edge) (Wl1 Wr1 : Wt) (b1 : Bias) (Wl2 Wr2 : Wt) (b2 : Bias) : Feat :=
  Cert.Sage.layer (meanMul (kH1 x a1 a2 Wl1 Wr1 b1) a1 a2 (dinv a2)) (kH1 x a1 a2 Wl1 Wr1 b1) Wl2 Wr2 (biasRow b2)

/-- The third layer before its rectifier (the second result), the same way. -/
def kP3 (x : Feat) (a1 a2 : Edge) (Wl1 Wr1 : Wt) (b1 : Bias) (Wl2 Wr2 : Wt) (b2 : Bias) (Wl3 Wr3 : Wt) (b3 : Bias) : Feat :=
  Cert.Sage.layer (meanMul (Cert.Sage.relu (kP2 x a1 a2 Wl1 Wr1 b1 Wl2 Wr2 b2)) a1 a2 (dinv a2))
    (Cert.Sage.relu (kP2 x a1 a2 Wl1 Wr1 b1 Wl2 Wr2 b2)) Wl3 Wr3 (biasRow b3)

/-- The reference's second layer before its rectifier. -/
def rP2 (x : Feat) (a1 a2 : Edge) (Wl1 Wr1 : Wt) (b1 : Bias) (Wl2 Wr2 : Wt) (b2 : Bias) : Feat :=
  refLayer (refRelu (refLayer x a1 a2 Wl1 Wr1 b1)) a1 a2 Wl2 Wr2 b2

/-- The reference's third layer before its rectifier. -/
def rP3 (x : Feat) (a1 a2 : Edge) (Wl1 Wr1 : Wt) (b1 : Bias) (Wl2 Wr2 : Wt) (b2 : Bias) (Wl3 Wr3 : Wt) (b3 : Bias) : Feat :=
  refLayer (refRelu (rP2 x a1 a2 Wl1 Wr1 b1 Wl2 Wr2 b2)) a1 a2 Wl3 Wr3 b3

/-- The two programs' first results are one array: layer by layer the reference's layer is the layer function of the
    mean by a quotient, and that mean is the mean by a product with the reciprocal. -/
theorem kP2_eq (x : Feat) (a1 a2 : Edge) (Wl1 Wr1 : Wt) (b1 : Bias) (Wl2 Wr2 : Wt) (b2 : Bias) :
    kP2 x a1 a2 Wl1 Wr1 b1 Wl2 Wr2 b2 = rP2 x a1 a2 Wl1 Wr1 b1 Wl2 Wr2 b2 := by
  unfold kP2 kH1 rP2
  simp only [refLayer_eq, refRelu_eq, meanMul_eq]

/-- The two programs' second results are one array. -/
theorem kP3_eq (x : Feat) (a1 a2 : Edge) (Wl1 Wr1 : Wt) (b1 : Bias) (Wl2 Wr2 : Wt) (b2 : Bias) (Wl3 Wr3 : Wt) (b3 : Bias) :
    kP3 x a1 a2 Wl1 Wr1 b1 Wl2 Wr2 b2 Wl3 Wr3 b3 = rP3 x a1 a2 Wl1 Wr1 b1 Wl2 Wr2 b2 Wl3 Wr3 b3 := by
  unfold kP3 rP3
  rw [kP2_eq]
  simp only [refLayer_eq, refRelu_eq, meanMul_eq]

end Cert.Sage.Spec

end
-- ==== Proof.KHost.lean ====
/-
  What the host operations between the launches compute.

  Before each launch the host forms the mean of the neighbours' features — the aggregate of the current features times the
  reciprocal of the degree, which the first stretch computes once and the later stretches read back — and lays the layer's
  bias out as a row. Every other buffer a later step reads is left as it was.
-/
import proofs.«161956_j21947282883085_1_alg».proof.Proof.PatchedKernelIdealLaunch
import proofs.«161956_j21947282883085_1_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.Sage.Spec

variable (W : Valuation τ sig (Elt Ideal))

/-! ## Before the first launch -/

theorem hostOps0_mean : StableHlo.after (hostOps0 (F := Ideal)) W (Proc.devRef .tc main_v20)
    = meanMul (W (Proc.devRef .tc main_arg0)) (W (Proc.devRef .tc main_arg1)) (W (Proc.devRef .tc main_arg2))
        (dinv (W (Proc.devRef .tc main_arg2))) := by
  after_results_simp
  rfl

theorem hostOps0_bias : StableHlo.after (hostOps0 (F := Ideal)) W (Proc.devRef .tc main_v21)
    = biasRow (W (Proc.devRef .tc main_arg5)) := by
  after_results_simp
  rfl

theorem hostOps0_dinv : StableHlo.after (hostOps0 (F := Ideal)) W (Proc.devRef .tc main_v7)
    = dinv (W (Proc.devRef .tc main_arg2)) := by
  after_results_simp
  rfl

theorem hostOps0_keep_arg0 : StableHlo.after (hostOps0 (F := Ideal)) W (Proc.devRef .tc main_arg0) = W (Proc.devRef .tc main_arg0) := by
  after_results_simp

theorem hostOps0_keep_arg1 : StableHlo.after (hostOps0 (F := Ideal)) W (Proc.devRef .tc main_arg1) = W (Proc.devRef .tc main_arg1) := by
  after_results_simp

theorem hostOps0_keep_arg2 : StableHlo.after (hostOps0 (F := Ideal)) W (Proc.devRef .tc main_arg2) = W (Proc.devRef .tc main_arg2) := by
  after_results_simp

theorem hostOps0_keep_arg3 : StableHlo.after (hostOps0 (F := Ideal)) W (Proc.devRef .tc main_arg3) = W (Proc.devRef .tc main_arg3) := by
  after_results_simp

theorem hostOps0_keep_arg4 : StableHlo.after (hostOps0 (F := Ideal)) W (Proc.devRef .tc main_arg4) = W (Proc.devRef .tc main_arg4) := by
  after_results_simp

theorem hostOps0_keep_arg6 : StableHlo.after (hostOps0 (F := Ideal)) W (Proc.devRef .tc main_arg6) = W (Proc.devRef .tc main_arg6) := by
  after_results_simp

theorem hostOps0_keep_arg7 : StableHlo.after (hostOps0 (F := Ideal)) W (Proc.devRef .tc main_arg7) = W (Proc.devRef .tc main_arg7) := by
  after_results_simp

theorem hostOps0_keep_arg8 : StableHlo.after (hostOps0 (F := Ideal)) W (Proc.devRef .tc main_arg8) = W (Proc.devRef .tc main_arg8) := by
  after_results_simp

theorem hostOps0_keep_arg9 : StableHlo.after (hostOps0 (F := Ideal)) W (Proc.devRef .tc main_arg9) = W (Proc.devRef .tc main_arg9) := by
  after_results_simp

theorem hostOps0_keep_arg10 : StableHlo.after (hostOps0 (F := Ideal)) W (Proc.devRef .tc main_arg10) = W (Proc.devRef .tc main_arg10) := by
  after_results_simp

theorem hostOps0_keep_arg11 : StableHlo.after (hostOps0 (F := Ideal)) W (Proc.devRef .tc main_arg11) = W (Proc.devRef .tc main_arg11) := by
  after_results_simp

/-! ## Between the first and the second launch -/

theorem hostOps1_mean : StableHlo.after (hostOps1 (F := Ideal)) W (Proc.devRef .tc main_v35)
    = meanMul (W (Proc.devRef .tc main_v22_1)) (W (Proc.devRef .tc main_arg1)) (W (Proc.devRef .tc main_arg2))
        (W (Proc.devRef .tc main_v7)) := by
  after_results_simp
  rfl

theorem hostOps1_bias : StableHlo.after (hostOps1 (F := Ideal)) W (Proc.devRef .tc main_v36)
    = biasRow (W (Proc.devRef .tc main_arg8)) := by
  after_results_simp
  rfl

theorem hostOps1_keep_v22_1 : StableHlo.after (hostOps1 (F := Ideal)) W (Proc.devRef .tc main_v22_1) = W (Proc.devRef .tc main_v22_1) := by
  after_results_simp

theorem hostOps1_keep_arg1 : StableHlo.after (hostOps1 (F := Ideal)) W (Proc.devRef .tc main_arg1) = W (Proc.devRef .tc main_arg1) := by
  after_results_simp

theorem hostOps1_keep_arg2 : StableHlo.after (hostOps1 (F := Ideal)) W (Proc.devRef .tc main_arg2) = W (Proc.devRef .tc main_arg2) := by
  after_results_simp

theorem hostOps1_keep_v7 : StableHlo.after (hostOps1 (F := Ideal)) W (Proc.devRef .tc main_v7) = W (Proc.devRef .tc main_v7) := by
  after_results_simp

theorem hostOps1_keep_arg6 : StableHlo.after (hostOps1 (F := Ideal)) W (Proc.devRef .tc main_arg6) = W (Proc.devRef .tc main_arg6) := by
  after_results_simp

theorem hostOps1_keep_arg7 : StableHlo.after (hostOps1 (F := Ideal)) W (Proc.devRef .tc main_arg7) = W (Proc.devRef .tc main_arg7) := by
  after_results_simp

theorem hostOps1_keep_arg9 : StableHlo.after (hostOps1 (F := Ideal)) W (Proc.devRef .tc main_arg9) = W (Proc.devRef .tc main_arg9) := by
  after_results_simp

theorem hostOps1_keep_arg10 : StableHlo.after (hostOps1 (F := Ideal)) W (Proc.devRef .tc main_arg10) = W (Proc.devRef .tc main_arg10) := by
  after_results_simp

theorem hostOps1_keep_arg11 : StableHlo.after (hostOps1 (F := Ideal)) W (Proc.devRef .tc main_arg11) = W (Proc.devRef .tc main_arg11) := by
  after_results_simp

/-! ## Between the second and the third launch -/

theorem hostOps2_mean : StableHlo.after (hostOps2 (F := Ideal)) W (Proc.devRef .tc main_v50)
    = meanMul (W (Proc.devRef .tc main_v37_1)) (W (Proc.devRef .tc main_arg1)) (W (Proc.devRef .tc main_arg2))
        (W (Proc.devRef .tc main_v7)) := by
  after_results_simp
  rfl

theorem hostOps2_bias : StableHlo.after (hostOps2 (F := Ideal)) W (Proc.devRef .tc main_v51)
    = biasRow (W (Proc.devRef .tc main_arg11)) := by
  after_results_simp
  rfl

theorem hostOps2_keep_v37_1 : StableHlo.after (hostOps2 (F := Ideal)) W (Proc.devRef .tc main_v37_1) = W (Proc.devRef .tc main_v37_1) := by
  after_results_simp

theorem hostOps2_keep_v37_0 : StableHlo.after (hostOps2 (F := Ideal)) W (Proc.devRef .tc main_v37_0) = W (Proc.devRef .tc main_v37_0) := by
  after_results_simp

theorem hostOps2_keep_arg9 : StableHlo.after (hostOps2 (F := Ideal)) W (Proc.devRef .tc main_arg9) = W (Proc.devRef .tc main_arg9) := by
  after_results_simp

theorem hostOps2_keep_arg10 : StableHlo.after (hostOps2 (F := Ideal)) W (Proc.devRef .tc main_arg10) = W (Proc.devRef .tc main_arg10) := by
  after_results_simp

end Cert.KernelIdeal.Host

end
-- ==== Proof.KValue.lean ====
/-
  The kernel program's two results as functions of its arguments.

  The buffer contents at each boundary of the program (before and after each of the three launches) are read one after
  the other: the host operations before a launch leave the mean of the neighbours' features and the bias row, the
  launch leaves the layer and the rectified layer of what it found, and every buffer a later step reads is carried
  along unchanged. The first result is the second layer before its rectifier, the second result the third layer.
-/
import proofs.«161956_j21947282883085_1_alg».proof.Proof.KRun
import proofs.«161956_j21947282883085_1_alg».proof.Proof.KBlocks
import proofs.«161956_j21947282883085_1_alg».proof.Proof.KHost

set_option maxRecDepth 16384

noncomputable section

namespace Cert.KernelIdeal.Chain

open Cert.KernelIdeal Cert.KernelIdeal.Gen Idealize.ShloMosaic Idealize.ShloMosaic.TcCoe Idealize.SL.Sem
open Cert.Sage.Spec

variable (m : (ℓ : Loc nD τ sig) → Buf (Elt Ideal) ℓ) (ρ : Dev nD → PrngReg) (c : Dev nD)

/-! ## Before the first launch -/

theorem w1_v20 : W1 m ρ c (Proc.devRef .tc main_v20) = meanMul (m ((c.tc : Thread nD τ).loc main_arg0)) (m ((c.tc : Thread nD τ).loc main_arg1)) (m ((c.tc : Thread nD τ).loc main_arg2)) (dinv (m ((c.tc : Thread nD τ).loc main_arg2))) := Host.hostOps0_mean (W0 m ρ c)
theorem w1_v21 : W1 m ρ c (Proc.devRef .tc main_v21) = biasRow (m ((c.tc : Thread nD τ).loc main_arg5)) := Host.hostOps0_bias (W0 m ρ c)
theorem w1_v7 : W1 m ρ c (Proc.devRef .tc main_v7) = (dinv (m ((c.tc : Thread nD τ).loc main_arg2))) := Host.hostOps0_dinv (W0 m ρ c)
theorem w1_arg0 : W1 m ρ c (Proc.devRef .tc main_arg0) = (m ((c.tc : Thread nD τ).loc main_arg0)) := Host.hostOps0_keep_arg0 (W0 m ρ c)
theorem w1_arg1 : W1 m ρ c (Proc.devRef .tc main_arg1) = (m ((c.tc : Thread nD τ).loc main_arg1)) := Host.hostOps0_keep_arg1 (W0 m ρ c)
theorem w1_arg2 : W1 m ρ c (Proc.devRef .tc main_arg2) = (m ((c.tc : Thread nD τ).loc main_arg2)) := Host.hostOps0_keep_arg2 (W0 m ρ c)
theorem w1_arg3 : W1 m ρ c (Proc.devRef .tc main_arg3) = (m ((c.tc : Thread nD τ).loc main_arg3)) := Host.hostOps0_keep_arg3 (W0 m ρ c)
theorem w1_arg4 : W1 m ρ c (Proc.devRef .tc main_arg4) = (m ((c.tc : Thread nD τ).loc main_arg4)) := Host.hostOps0_keep_arg4 (W0 m ρ c)
theorem w1_arg6 : W1 m ρ c (Proc.devRef .tc main_arg6) = (m ((c.tc : Thread nD τ).loc main_arg6)) := Host.hostOps0_keep_arg6 (W0 m ρ c)
theorem w1_arg7 : W1 m ρ c (Proc.devRef .tc main_arg7) = (m ((c.tc : Thread nD τ).loc main_arg7)) := Host.hostOps0_keep_arg7 (W0 m ρ c)
theorem w1_arg8 : W1 m ρ c (Proc.devRef .tc main_arg8) = (m ((c.tc : Thread nD τ).loc main_arg8)) := Host.hostOps0_keep_arg8 (W0 m ρ c)
theorem w1_arg9 : W1 m ρ c (Proc.devRef .tc main_arg9) = (m ((c.tc : Thread nD τ).loc main_arg9)) := Host.hostOps0_keep_arg9 (W0 m ρ c)
theorem w1_arg10 : W1 m ρ c (Proc.devRef .tc main_arg10) = (m ((c.tc : Thread nD τ).loc main_arg10)) := Host.hostOps0_keep_arg10 (W0 m ρ c)
theorem w1_arg11 : W1 m ρ c (Proc.devRef .tc main_arg11) = (m ((c.tc : Thread nD τ).loc main_arg11)) := Host.hostOps0_keep_arg11 (W0 m ρ c)

/-! ## After the first launch -/

theorem w2_v22_1 : W2 m ρ c (Proc.devRef .tc main_v22_1) = (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (W2_arr m ρ c 6).trans (Blocks.final0_6' (V1 m ρ) c (w1_v20 m ρ c) (w1_arg0 m ρ c) (w1_arg3 m ρ c) (w1_arg4 m ρ c) (w1_v21 m ρ c))
theorem w2_v7 : W2 m ρ c (Proc.devRef .tc main_v7) = (dinv (m ((c.tc : Thread nD τ).loc main_arg2))) := (W2_of_ne m ρ c main_v7 (by decide)).trans (w1_v7 m ρ c)
theorem w2_arg1 : W2 m ρ c (Proc.devRef .tc main_arg1) = (m ((c.tc : Thread nD τ).loc main_arg1)) := (W2_of_ne m ρ c main_arg1 (by decide)).trans (w1_arg1 m ρ c)
theorem w2_arg2 : W2 m ρ c (Proc.devRef .tc main_arg2) = (m ((c.tc : Thread nD τ).loc main_arg2)) := (W2_of_ne m ρ c main_arg2 (by decide)).trans (w1_arg2 m ρ c)
theorem w2_arg6 : W2 m ρ c (Proc.devRef .tc main_arg6) = (m ((c.tc : Thread nD τ).loc main_arg6)) := (W2_of_ne m ρ c main_arg6 (by decide)).trans (w1_arg6 m ρ c)
theorem w2_arg7 : W2 m ρ c (Proc.devRef .tc main_arg7) = (m ((c.tc : Thread nD τ).loc main_arg7)) := (W2_of_ne m ρ c main_arg7 (by decide)).trans (w1_arg7 m ρ c)
theorem w2_arg8 : W2 m ρ c (Proc.devRef .tc main_arg8) = (m ((c.tc : Thread nD τ).loc main_arg8)) := (W2_of_ne m ρ c main_arg8 (by decide)).trans (w1_arg8 m ρ c)
theorem w2_arg9 : W2 m ρ c (Proc.devRef .tc main_arg9) = (m ((c.tc : Thread nD τ).loc main_arg9)) := (W2_of_ne m ρ c main_arg9 (by decide)).trans (w1_arg9 m ρ c)
theorem w2_arg10 : W2 m ρ c (Proc.devRef .tc main_arg10) = (m ((c.tc : Thread nD τ).loc main_arg10)) := (W2_of_ne m ρ c main_arg10 (by decide)).trans (w1_arg10 m ρ c)
theorem w2_arg11 : W2 m ρ c (Proc.devRef .tc main_arg11) = (m ((c.tc : Thread nD τ).loc main_arg11)) := (W2_of_ne m ρ c main_arg11 (by decide)).trans (w1_arg11 m ρ c)

/-! ## Before the second launch -/

theorem w3_v35 : W3 m ρ c (Proc.devRef .tc main_v35) = meanMul (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (dinv (m ((c.tc : Thread nD τ).loc main_arg2))) :=
  (Host.hostOps1_mean (W2 m ρ c)).trans (by rw [w2_v22_1, w2_arg1, w2_arg2, w2_v7])
theorem w3_v36 : W3 m ρ c (Proc.devRef .tc main_v36) = biasRow (m ((c.tc : Thread nD τ).loc main_arg8)) :=
  (Host.hostOps1_bias (W2 m ρ c)).trans (by rw [w2_arg8])
theorem w3_v22_1 : W3 m ρ c (Proc.devRef .tc main_v22_1) = (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := (Host.hostOps1_keep_v22_1 (W2 m ρ c)).trans (w2_v22_1 m ρ c)
theorem w3_v7 : W3 m ρ c (Proc.devRef .tc main_v7) = (dinv (m ((c.tc : Thread nD τ).loc main_arg2))) := (Host.hostOps1_keep_v7 (W2 m ρ c)).trans (w2_v7 m ρ c)
theorem w3_arg1 : W3 m ρ c (Proc.devRef .tc main_arg1) = (m ((c.tc : Thread nD τ).loc main_arg1)) := (Host.hostOps1_keep_arg1 (W2 m ρ c)).trans (w2_arg1 m ρ c)
theorem w3_arg2 : W3 m ρ c (Proc.devRef .tc main_arg2) = (m ((c.tc : Thread nD τ).loc main_arg2)) := (Host.hostOps1_keep_arg2 (W2 m ρ c)).trans (w2_arg2 m ρ c)
theorem w3_arg6 : W3 m ρ c (Proc.devRef .tc main_arg6) = (m ((c.tc : Thread nD τ).loc main_arg6)) := (Host.hostOps1_keep_arg6 (W2 m ρ c)).trans (w2_arg6 m ρ c)
theorem w3_arg7 : W3 m ρ c (Proc.devRef .tc main_arg7) = (m ((c.tc : Thread nD τ).loc main_arg7)) := (Host.hostOps1_keep_arg7 (W2 m ρ c)).trans (w2_arg7 m ρ c)
theorem w3_arg9 : W3 m ρ c (Proc.devRef .tc main_arg9) = (m ((c.tc : Thread nD τ).loc main_arg9)) := (Host.hostOps1_keep_arg9 (W2 m ρ c)).trans (w2_arg9 m ρ c)
theorem w3_arg10 : W3 m ρ c (Proc.devRef .tc main_arg10) = (m ((c.tc : Thread nD τ).loc main_arg10)) := (Host.hostOps1_keep_arg10 (W2 m ρ c)).trans (w2_arg10 m ρ c)
theorem w3_arg11 : W3 m ρ c (Proc.devRef .tc main_arg11) = (m ((c.tc : Thread nD τ).loc main_arg11)) := (Host.hostOps1_keep_arg11 (W2 m ρ c)).trans (w2_arg11 m ρ c)

/-! ## After the second launch -/

theorem w4_v37_0 : W4 m ρ c (Proc.devRef .tc main_v37_0) = (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W4_arr m ρ c 5).trans (Blocks.final1_5' (V3 m ρ) c (w3_v35 m ρ c) (w3_v22_1 m ρ c) (w3_arg6 m ρ c) (w3_arg7 m ρ c) (w3_v36 m ρ c))
theorem w4_v37_1 : W4 m ρ c (Proc.devRef .tc main_v37_1) = Cert.Sage.relu (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W4_arr m ρ c 6).trans (Blocks.final1_6' (V3 m ρ) c (w3_v35 m ρ c) (w3_v22_1 m ρ c) (w3_arg6 m ρ c) (w3_arg7 m ρ c) (w3_v36 m ρ c))
theorem w4_v7 : W4 m ρ c (Proc.devRef .tc main_v7) = (dinv (m ((c.tc : Thread nD τ).loc main_arg2))) := (W4_of_ne m ρ c main_v7 (by decide)).trans (w3_v7 m ρ c)
theorem w4_arg1 : W4 m ρ c (Proc.devRef .tc main_arg1) = (m ((c.tc : Thread nD τ).loc main_arg1)) := (W4_of_ne m ρ c main_arg1 (by decide)).trans (w3_arg1 m ρ c)
theorem w4_arg2 : W4 m ρ c (Proc.devRef .tc main_arg2) = (m ((c.tc : Thread nD τ).loc main_arg2)) := (W4_of_ne m ρ c main_arg2 (by decide)).trans (w3_arg2 m ρ c)
theorem w4_arg9 : W4 m ρ c (Proc.devRef .tc main_arg9) = (m ((c.tc : Thread nD τ).loc main_arg9)) := (W4_of_ne m ρ c main_arg9 (by decide)).trans (w3_arg9 m ρ c)
theorem w4_arg10 : W4 m ρ c (Proc.devRef .tc main_arg10) = (m ((c.tc : Thread nD τ).loc main_arg10)) := (W4_of_ne m ρ c main_arg10 (by decide)).trans (w3_arg10 m ρ c)
theorem w4_arg11 : W4 m ρ c (Proc.devRef .tc main_arg11) = (m ((c.tc : Thread nD τ).loc main_arg11)) := (W4_of_ne m ρ c main_arg11 (by decide)).trans (w3_arg11 m ρ c)

/-! ## Before the third launch -/

theorem w5_v50 : W5 m ρ c (Proc.devRef .tc main_v50) = meanMul (Cert.Sage.relu (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg1)) (m ((c.tc : Thread nD τ).loc main_arg2)) (dinv (m ((c.tc : Thread nD τ).loc main_arg2))) :=
  (Host.hostOps2_mean (W4 m ρ c)).trans (by rw [w4_v37_1, w4_arg1, w4_arg2, w4_v7])
theorem w5_v51 : W5 m ρ c (Proc.devRef .tc main_v51) = biasRow (m ((c.tc : Thread nD τ).loc main_arg11)) :=
  (Host.hostOps2_bias (W4 m ρ c)).trans (by rw [w4_arg11])
theorem w5_v37_1 : W5 m ρ c (Proc.devRef .tc main_v37_1) = Cert.Sage.relu (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := (Host.hostOps2_keep_v37_1 (W4 m ρ c)).trans (w4_v37_1 m ρ c)
theorem w5_v37_0 : W5 m ρ c (Proc.devRef .tc main_v37_0) = (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := (Host.hostOps2_keep_v37_0 (W4 m ρ c)).trans (w4_v37_0 m ρ c)
theorem w5_arg9 : W5 m ρ c (Proc.devRef .tc main_arg9) = (m ((c.tc : Thread nD τ).loc main_arg9)) := (Host.hostOps2_keep_arg9 (W4 m ρ c)).trans (w4_arg9 m ρ c)
theorem w5_arg10 : W5 m ρ c (Proc.devRef .tc main_arg10) = (m ((c.tc : Thread nD τ).loc main_arg10)) := (Host.hostOps2_keep_arg10 (W4 m ρ c)).trans (w4_arg10 m ρ c)

/-! ## After the third launch: the two results -/

theorem w6_v52_0 : W6 m ρ c (Proc.devRef .tc main_v52_0) = (kP3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (W6_arr m ρ c 5).trans (Blocks.final2_5' (V5 m ρ) c (w5_v50 m ρ c) (w5_v37_1 m ρ c) (w5_arg9 m ρ c) (w5_arg10 m ρ c) (w5_v51 m ρ c))
theorem w6_v37_0 : W6 m ρ c (Proc.devRef .tc main_v37_0) = (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := (W6_of_ne m ρ c main_v37_0 (by decide)).trans (w5_v37_0 m ρ c)

/-- THE RUN: every weakly fair execution of the kernel program terminates, nothing faulting, with its first result at the
    second layer and its second result at the third layer of the network — as functions of the arguments' launch
    contents — and the arguments unchanged. -/
theorem run : θ_run defs (onTc (τ := τ) (main (F := Ideal))) ⟨m, fun _ => 0, ρ⟩ (fun r => ∀ c : Dev nD,
      r.2.mem ((c.tc : Thread nD τ).loc main_v37_0) = (kP2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_v52_0) = (kP3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (w6_v37_0 m ρ c), (h c).2.1.trans (w6_v52_0 m ρ c), (h c).2.2⟩)
    (Run.run_results m ρ)

end Cert.KernelIdeal.Chain

end
-- ==== Proof.RefRun.lean ====
/-
  The reference program's two results are its network's second and third layers before their rectifiers.

  The generated run of the reference states each result as the composed term of its host operations over the arguments;
  that term is, operation for operation, the reference network of the specification: three layers with the rectifier
  between them, the same gather, scatter-add and degree in each.
-/
import proofs.«161956_j21947282883085_1_alg».proof.Proof.Gen.ReferenceIdeal.Run
import proofs.«161956_j21947282883085_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem
open Cert.Sage.Spec

variable (m : (ℓ : Loc nD τ sig) → Buf (Elt Ideal) ℓ) (c : Dev nD)

/-- The first result is the second layer before its rectifier. -/
theorem res_out0_eq : Cert.ReferenceIdeal.Value.res_main_v50 (F := Ideal) m c
    = rP2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) := by
  unfold Cert.ReferenceIdeal.Value.res_main_v50
  rfl

/-- The second result is the third layer before its rectifier. -/
theorem res_out1_eq : Cert.ReferenceIdeal.Value.res_main_v76 (F := Ideal) m c
    = rP3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) := by
  unfold Cert.ReferenceIdeal.Value.res_main_v76
  rfl

end Cert.ReferenceIdeal.RefValue

end
-- ==== Proof.lean ====
/-
  A three-layer mean-aggregating graph network, its dense part a tiled kernel, against the plain reference.

  Each layer takes the node features `h` (100000 nodes, 128 features), gathers the features of every edge's source,
  adds them up at the edge's end, divides by the node's in-degree (at least one), and returns
  `mean · Wl + h · Wr + b`; a rectifier follows the first two layers, and the results are the second and the third
  layer before their rectifiers. The kernel program does the gather, the scatter-add and the degree on the host, forms
  the mean as the aggregate TIMES the reciprocal of the degree, and computes `(mean · Wl + h · Wr) + b` and its rectifier in
  a kernel over 50 tiles of 2000 rows, launched once per layer; the reference divides the aggregate by the degree and adds
  the bias between the two products.

  At the extended reals the two agree, entry by entry, with no finiteness needed: the degree is a maximum with one, so
  not zero, and `a * (1 / d) = a / d` for every such `d`; a sum of three terms does not depend on their order; a change of
  float format is the identity; and a matrix product of a tile of rows is that tile of the product. The aggregation is
  never opened: it is the same term of the same operations in both programs.

  The frames of the two kernel programs are the generated ones; the reference's frame is its generated run with the
  results dropped. The kernel program's idealization rewrote nothing, so `preserves` is trivial.
-/
import proofs.«161956_j21947282883085_1_alg».proof.Defs
import proofs.«161956_j21947282883085_1_alg».proof.Proof.Gen.Kernel
import proofs.«161956_j21947282883085_1_alg».proof.Proof.Gen.KernelIdeal
import proofs.«161956_j21947282883085_1_alg».proof.Proof.Gen.ReferenceIdeal
import proofs.«161956_j21947282883085_1_alg».proof.Proof.Gen.Pre_finite_inputs
import proofs.«161956_j21947282883085_1_alg».proof.Proof.Gen.ReferenceIdeal.Run
import proofs.«161956_j21947282883085_1_alg».proof.Proof.PatchedKernelFrame
import proofs.«161956_j21947282883085_1_alg».proof.Proof.PatchedKernelIdealFrame
import proofs.«161956_j21947282883085_1_alg».proof.Proof.KValue
import proofs.«161956_j21947282883085_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem
open Cert.Sage.Spec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- At the extended reals both programs end with the second and the third layer of one network. -/
theorem algebraic : Cert.algebraic_KernelIdeal_ReferenceIdeal := by
  intro m ρ m' ρ' _ hagree
  refine ⟨fun c => kP2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => kP3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, -⟩ := hagree c
    rw [Cert.ReferenceIdeal.RefValue.res_out0_eq, h0, h1, h2, h3, h4, h5, h6, h7, h8]
    exact (kP2_eq _ _ _ _ _ _ _ _ _).symm
  · obtain ⟨h0, h1, h2, h3, h4, h5, h6, h7, h8, h9, h10, h11⟩ := hagree c
    rw [Cert.ReferenceIdeal.RefValue.res_out1_eq, h0, h1, h2, h3, h4, h5, h6, h7, h8, h9, h10, h11]
    exact (kP3_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
